-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn {F : FTy → Type} [FloatOps F] (main_arg0 : FVec F S100000x128 .f32) (main_arg1 : IVec S2x1600000 32) (main_arg2 : FVec F S3x128x128 .f32) (main_arg3 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S10000x128 : Shape := ⟨2, ![10000, 128]⟩
abbrev S1700000x128 : Shape := ⟨2, ![1700000, 128]⟩
abbrev S1x128 : Shape := ⟨2, ![1, 128]⟩
abbrev S128 : Shape := ⟨1, ![128]⟩

abbrev nBuf : Space → Nat
  | .hbm => 111
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S1x128x128, .f32⟩
  | .hbm, ⟨46, _⟩ => ⟨S128x128, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S128, .f32⟩
  | .hbm, ⟨65, _⟩ => ⟨S1x128, .f32⟩
  | .hbm, ⟨66, _⟩ => ⟨S100000x128, .f32⟩
  | .hbm, ⟨67, _⟩ => ⟨S1x128x128, .f32⟩
  | .hbm, ⟨68, _⟩ => ⟨S128x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S1x128, .f32⟩
  | .hbm, ⟨86, _⟩ => ⟨S128, .f32⟩
  | .hbm, ⟨87, _⟩ => ⟨S1x128, .f32⟩
  | .hbm, ⟨88, _⟩ => ⟨S100000x128, .f32⟩
  | .hbm, ⟨89, _⟩ => ⟨S1x128x128, .f32⟩
  | .hbm, ⟨90, _⟩ => ⟨S128x128, .f32⟩
  | .hbm, ⟨91, _⟩ => ⟨S100000x128, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x128, .f32⟩
  | .hbm, ⟨101, _⟩ => ⟨S1700000x128, .f32⟩
  | .hbm, ⟨102, _⟩ => ⟨S1700000x128, .f32⟩
  | .hbm, ⟨103, _⟩ => ⟨S_, .f32⟩
  | .hbm, ⟨104, _⟩ => ⟨S100000x128, .f32⟩
  | .hbm, ⟨105, _⟩ => ⟨S1700000x1, .i32⟩
  | .hbm, ⟨106, _⟩ => ⟨S100000x128, .f32⟩
  | .hbm, ⟨107, _⟩ => ⟨S1x128, .f32⟩
  | .hbm, ⟨108, _⟩ => ⟨S128, .f32⟩
  | .hbm, ⟨109, _⟩ => ⟨S1x128, .f32⟩
  | .hbm, ⟨110, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_9 : Ref sig .tc := ⟨.hbm, 70, rfl⟩
abbrev main_v53 : Ref sig .tc := ⟨.hbm, 71, rfl⟩
abbrev main_v54 : Ref sig .tc := ⟨.hbm, 72, rfl⟩
abbrev main_c_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c_12 : Ref sig .tc := ⟨.hbm, 92, rfl⟩
abbrev main_v72 : Ref sig .tc := ⟨.hbm, 93, rfl⟩
abbrev main_v73 : Ref sig .tc := ⟨.hbm, 94, rfl⟩
abbrev main_c_13 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_14 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S1700000x128 : Shape := ⟨2, ![1700000, 128]⟩
abbrev S1x128 : Shape := ⟨2, ![1, 128]⟩
abbrev S128 : Shape := ⟨1, ![128]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S1x128x128, .f32⟩
  | .hbm, ⟨46, _⟩ => ⟨S128x128, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S1x128x128, .f32⟩
  | .hbm, ⟨72, _⟩ => ⟨S128x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S1x128x128, .f32⟩
  | .hbm, ⟨98, _⟩ => ⟨S128x128, .f32⟩
  | .hbm, ⟨99, _⟩ => ⟨S100000x128, .f32⟩
  | .hbm, ⟨100, _⟩ => ⟨S_, .i32⟩
  | .hbm, ⟨101, _⟩ => ⟨S1700000, .i32⟩
  | .hbm, ⟨102, _⟩ => ⟨S1700000, .i1⟩
  | .hbm, ⟨103, _⟩ => ⟨S_, .i32⟩
  | .hbm, ⟨104, _⟩ => ⟨S1700000, .i32⟩
  | .hbm, ⟨105, _⟩ => ⟨S1700000, .i32⟩
  | .hbm, ⟨106, _⟩ => ⟨S1700000, .i32⟩
  | .hbm, ⟨107, _⟩ => ⟨S1700000x1, .i32⟩
  | .hbm, ⟨108, _⟩ => ⟨S1700000x128, .f32⟩
  | .hbm, ⟨109, _⟩ => ⟨S1700000x128, .f32⟩
  | .hbm, ⟨110, _⟩ => ⟨S1700000x128, .f32⟩
  | .hbm, ⟨111, _⟩ => ⟨S_, .f32⟩
  | .hbm, ⟨112, _⟩ => ⟨S100000x128, .f32⟩
  | .hbm, ⟨113, _⟩ => ⟨S1700000x1, .i32⟩
  | .hbm, ⟨114, _⟩ => ⟨S100000x128, .f32⟩
  | .hbm, ⟨115, _⟩ => ⟨S1x128, .f32⟩
  | .hbm, ⟨116, _⟩ => ⟨S128, .f32⟩
  | .hbm, ⟨117, _⟩ => ⟨S1x128, .f32⟩
  | .hbm, ⟨118, _⟩ => ⟨S100000x128, .f32⟩
  | .hbm, ⟨119, _⟩ => ⟨S100000x128, .f32⟩
  | .hbm, ⟨120, _⟩ => ⟨S_, .f32⟩
  | .hbm, ⟨121, _⟩ => ⟨S100000x128, .f32⟩
  | .hbm, ⟨122, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call1_cst : Ref sig .tc := ⟨.hbm, 68, rfl⟩
abbrev main_call1_v0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_9 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call2_cst : Ref sig .tc := ⟨.hbm, 94, rfl⟩
abbrev main_call2_v0 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_12 : Ref sig .tc := ⟨.hbm, 100, rfl⟩
abbrev main_v76 : Ref sig .tc := ⟨.hbm, 101, rfl⟩
abbrev main_v77 : Ref sig .tc := ⟨.hbm, 102, rfl⟩
abbrev main_c_13 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_14 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_call3_cst : Ref sig .tc := ⟨.hbm, 120, rfl⟩
abbrev main_call3_v0 : Ref sig .tc := ⟨.hbm, 121, rfl⟩
abbrev main_v93 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The whole program's run with its result named. The program is fourteen stretches in a row: host operations, then a
  launched stage, six times over. Running them one after the other from the launch memory, every buffer that is not a
  staging buffer ends at the contents the stretches leave in turn: after a stretch of host operations, what those
  operations compute from the contents before it; after a launched stage, its arrays at what its write-backs leave and
  every other buffer as it was. Read at the result buffer, that is the program's result; read at an argument, it is the
  argument as launched.
-/
import proofs.«145236_j10685878632941_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result buffer at the contents the fourteen stretches
    leave in it, and the four arguments as launched. -/
theorem run_named : θ_run defs (onTc (τ := τ) (main (F := F))) ⟨m, fun _ => 0, ρ⟩ (fun r => ∀ c : Dev nD,
      r.2.mem ((c.tc : Thread nD τ).loc main_v87) = W14 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v87 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c)⟩)

end Cert.KernelIdeal.Run

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«145236_j10685878632941_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«145236_j10685878632941_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«145236_j10685878632941_1_alg».proof.Proof.LibBlockReads
import proofs.«145236_j10685878632941_1_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.Bodies.lean ====
/-
  The two kernel bodies at the exact values. A block of rows of the activations is narrowed, the weight matrix is
  narrowed, and their product is accumulated into zeros: on the extended reals the narrowing is the identity and
  the product into zeros is the matrix product of the block with the weights. A block of rows plus the bias row,
  broadcast down the rows, joined with zero: the bias-then-clamp of the block.
-/
import proofs.«145236_j10685878632941_1_alg».proof.Proof.Gen.KernelIdeal.Skeleton
import proofs.«145236_j10685878632941_1_alg».proof.Proof.LibMatProd
import proofs.«145236_j10685878632941_1_alg».proof.Proof.LibBiasRelu
import Idealize.ShloMosaic.Lib.Pipeline.Value
import Idealize.ShloMosaic.Lib.ValueIdx

noncomputable section

namespace Cert.KernelIdeal.Bodies

open Idealize.ShloMosaic Idealize.ShloMosaic.ValueIdx
open Cert.KernelIdeal Cert.KernelIdeal.Gen Cert.Lib.MatProd Cert.Lib.BiasRelu

/-- First layer's product: rows of the input times the first weight matrix. -/
theorem product0 (x0 : Vec Ideal S10000x128 .f32) (x1 : Vec Ideal S128x128 .f32) :
    k0_pay1 (F := Ideal) x0 x1 = matProd x0 x1 := by
  unfold k0_pay1
  dsimp only
  rw [matmul_zero_eq_matProd dot_S10000x128_S128x128_S10000x128_1_0_0_1_n_n rfl rfl rfl rfl rfl rfl, shapeCast_self]
  rfl

/-- Second layer's product (the block of rows is also re-shaped in place, which changes nothing). -/
theorem product2 (x0 : Vec Ideal S10000x128 .f32) (x1 : Vec Ideal S128x128 .f32) :
    k2_pay1 (F := Ideal) x0 x1 = matProd x0 x1 := by
  unfold k2_pay1
  dsimp only
  rw [matmul_zero_eq_matProd dot_S10000x128_S128x128_S10000x128_1_0_0_1_n_n rfl rfl rfl rfl rfl rfl, shapeCast_self, shapeCast_self]
  rfl

/-- Third layer's product. -/
theorem product4 (x0 : Vec Ideal S10000x128 .f32) (x1 : Vec Ideal S128x128 .f32) :
    k4_pay1 (F := Ideal) x0 x1 = matProd x0 x1 := by
  unfold k4_pay1
  dsimp only
  rw [matmul_zero_eq_matProd dot_S10000x128_S128x128_S10000x128_1_0_0_1_n_n rfl rfl rfl rfl rfl rfl, shapeCast_self, shapeCast_self]
  rfl

/-- First layer's bias and clamp. -/
theorem biasClamp1 (x0 : Vec Ideal S10000x128 .f32) (x1 : Vec Ideal S1x128 .f32) :
    k1_pay1 (F := Ideal) x0 x1 = biasRelu x0 x1 := by
  unfold k1_pay1
  dsimp only
  rw [body_eq, shapeCast_self]

/-- Second layer's bias and clamp. -/
theorem biasClamp3 (x0 : Vec Ideal S10000x128 .f32) (x1 : Vec Ideal S1x128 .f32) :
    k3_pay1 (F := Ideal) x0 x1 = biasRelu x0 x1 := by
  unfold k3_pay1
  dsimp only
  rw [body_eq, shapeCast_self]

/-- Third layer's bias and clamp. -/
theorem biasClamp5 (x0 : Vec Ideal S10000x128 .f32) (x1 : Vec Ideal S1x128 .f32) :
    k5_pay1 (F := Ideal) x0 x1 = biasRelu x0 x1 := by
  unfold k5_pay1
  dsimp only
  rw [body_eq, shapeCast_self]

end Cert.KernelIdeal.Bodies

end
-- ==== Proof.Region0.lean ====
/-
  The first matrix-product stage as a whole-array function. The rows are cut into ten blocks of 10000; grid point t
  multiplies block t of the left array by the whole 128×128 right array and writes block t of the result. An entry of
  a product depends on one row of the left operand, so block t of the result is block t of the product of the whole
  arrays, and the ten blocks cover every row: after the stage the result array is the product of the two arrays as the
  stage found them.
-/
import proofs.«145236_j10685878632941_1_alg».proof.Proof.Gen.KernelIdeal.Frame
import proofs.«145236_j10685878632941_1_alg».proof.Proof.Bodies
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.MatProd

variable (V : (c : Dev nD) → (b : Ref sig .tc) → Buf (Elt Ideal) ((c : Thread nD τ).loc b))

theorem zero_offset : (![0, 0] : Fin 2 → Nat) = fun _ => 0 := funext fun a => by fin_cases a <;> rfl

/-- The index maps over the grid: point t reads rows-block t of the left array and the one block of the right array,
    and writes rows-block t. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every rows-block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- Rows of a product: if row p of A' is row r of A and B' is B, entry (p, q) of A'·B' is entry (r, q) of A·B. -/
theorem product_rows (A : S100000x128.Idx → EReal) (B : S128x128.Idx → EReal) (A' : S10000x128.Idx → EReal)
    (B' : S128x128.Idx → EReal) (p : Fin 10000) (r : Fin 100000) (q : Fin 128)
    (hA : ∀ k : Fin 128, A' (ix2 p k) = A (ix2 r k)) (hB : ∀ k : Fin 128, B' (ix2 k q) = B (ix2 k q)) :
    matProd A' B' (ix2 p q) = matProd A B (ix2 r q) :=
  matProd_block A A' B B' p q r q hA hB

/-- What point t writes back is block t of the product of the two whole arrays. -/
theorem flushed_eq (c : Dev nD) (t : Fin cfg0.N) :
    (dat0 (F := Ideal) V c).flushed 2 t
      = ((cfg0.win 2).blk t).view.read (Elt Ideal) (matProd (V c main_arg0) (V c main_v32)) := by
  show (cfg0.win 2).cut (grid0.coords t) ((dat0 V c).after 2 t) = _
  rw [after0_2]
  unfold out0_2
  rw [View.canon_unit_zero zero_offset]
  simp only [View.ld_unit_zero (S := S10000x128) zero_offset, View.ld_unit_zero (S := S128x128) zero_offset]
  rw [Bodies.product0]
  obtain ⟨e0, e1, e2, e3, e4, e5⟩ := idx_facts t
  funext j
  obtain ⟨p, q, rfl⟩ : ∃ (p : Fin 10000) (q : Fin 128), j = ix2 p q := ⟨j 0, j 1, eq_ix2 j⟩
  have hr : win0_2.index t (0 : Fin 2) * 10000 + p.val < 100000 := by have := p.isLt; omega
  have hemb : ((cfg0.win 2).blk t).view.emb (ix2 p q)
      = ix2 (⟨win0_2.index t (0 : Fin 2) * 10000 + p.val, hr⟩ : Fin 100000) q := by
    funext a; apply Fin.ext
    match a with
    | ⟨0, _⟩ => show win0_2.index t (0 : Fin 2) * 10000 + 1 * p.val = win0_2.index t (0 : Fin 2) * 10000 + p.val; omega
    | ⟨1, _⟩ => show win0_2.index t (1 : Fin 2) * 128 + 1 * q.val = q.val; omega
  show matProd (iblk0 V c 0 t) (iblk0 V c 1 t) (ix2 p q)
      = matProd (V c main_arg0) (V c main_v32) (((cfg0.win 2).blk t).view.emb (ix2 p q))
  rw [hemb]
  refine product_rows _ _ _ _ p _ q (fun k => ?_) (fun k => ?_)
  · show V c main_arg0 (((cfg0.win 0).blk t).view.emb (ix2 p k)) = V c main_arg0 (ix2 _ k)
    refine congrArg _ ?_
    funext a; apply Fin.ext
    match a with
    | ⟨0, _⟩ => show win0_0.index t (0 : Fin 2) * 10000 + 1 * p.val = win0_2.index t (0 : Fin 2) * 10000 + p.val; omega
    | ⟨1, _⟩ => show win0_0.index t (1 : Fin 2) * 128 + 1 * k.val = k.val; omega
  · show V c main_v32 (((cfg0.win 1).blk t).view.emb (ix2 k q)) = V c main_v32 (ix2 k q)
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega

/-- An index of the result array is in point t's block iff each coordinate is in the block's range on its axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v33).slice (win0_2.rect t)).set ↔ _
  rw [View.set_slice_whole, Rect.mem_set_unit]
  exact Iff.rfl

/-- Row r is in the block of the point whose block index is r / 10000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- After the stage the result array is the product of the two arrays as the stage found them. -/
theorem final (c : Dev nD) :
    (dat0 (F := Ideal) V c).arrAt 2 cfg0.N = matProd (V c main_arg0) (V c main_v32) :=
  (dat0 (F := Ideal) V c).arrAt_eq_of_cover 2 _ (fun t _ => flushed_eq V c t) cover

end Cert.KernelIdeal.Region0

end
-- ==== Proof.Region1.lean ====
/-
  The first bias-and-clamp stage as a whole-array function. Grid point t takes block t of the rows of the aggregated
  array and the one 1×128 bias row, adds the row to every row of the block, joins with zero, and writes block t of the
  result. An entry depends on one entry of the aggregated array and one entry of the row, so block t of the result is
  block t of the bias-then-clamp of the whole array, and the ten blocks cover every row.
-/
import proofs.«145236_j10685878632941_1_alg».proof.Proof.Gen.KernelIdeal.Frame
import proofs.«145236_j10685878632941_1_alg».proof.Proof.Bodies
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.BiasRelu

variable (V : (c : Dev nD) → (b : Ref sig .tc) → Buf (Elt Ideal) ((c : Thread nD τ).loc b))

theorem zero_offset : (![0, 0] : Fin 2 → Nat) = fun _ => 0 := funext fun a => by fin_cases a <;> rfl

/-- The index maps over the grid: point t reads rows-block t of the array and the one block of the bias row, and writes
    rows-block t. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every rows-block is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- One entry: equal entries of the array and equal entries of the row give equal results. -/
theorem entry_eq (X : S100000x128.Idx → EReal) (b : S1x128.Idx → EReal) (X' : S10000x128.Idx → EReal)
    (b' : S1x128.Idx → EReal) (p : Fin 10000) (r : Fin 100000) (q : Fin 128)
    (hX : X' (ix2 p q) = X (ix2 r q)) (hb : b' (ix2 0 q) = b (ix2 0 q)) :
    biasRelu X' b' (ix2 p q) = biasRelu X b (ix2 r q) := by
  rw [biasRelu_apply, biasRelu_apply, hX, hb]

/-- What point t writes back is block t of the bias-then-clamp of the whole array. -/
theorem flushed_eq (c : Dev nD) (t : Fin cfg1.N) :
    (dat1 (F := Ideal) V c).flushed 2 t
      = ((cfg1.win 2).blk t).view.read (Elt Ideal) (biasRelu (V c main_v45) (V c main_v48)) := by
  show (cfg1.win 2).cut (grid1.coords t) ((dat1 V c).after 2 t) = _
  rw [after1_2]
  unfold out1_2
  rw [View.canon_unit_zero zero_offset]
  simp only [View.ld_unit_zero (S := S10000x128) zero_offset, View.ld_unit_zero (S := S1x128) zero_offset]
  rw [Bodies.biasClamp1]
  obtain ⟨e0, e1, e2, e3, e4, e5⟩ := idx_facts t
  funext j
  obtain ⟨p, q, rfl⟩ : ∃ (p : Fin 10000) (q : Fin 128), j = ix2 p q := ⟨j 0, j 1, eq_ix2 j⟩
  have hr : win1_2.index t (0 : Fin 2) * 10000 + p.val < 100000 := by have := p.isLt; omega
  have hemb : ((cfg1.win 2).blk t).view.emb (ix2 p q)
      = ix2 (⟨win1_2.index t (0 : Fin 2) * 10000 + p.val, hr⟩ : Fin 100000) q := by
    funext a; apply Fin.ext
    match a with
    | ⟨0, _⟩ => show win1_2.index t (0 : Fin 2) * 10000 + 1 * p.val = win1_2.index t (0 : Fin 2) * 10000 + p.val; omega
    | ⟨1, _⟩ => show win1_2.index t (1 : Fin 2) * 128 + 1 * q.val = q.val; omega
  show biasRelu (iblk1 V c 0 t) (iblk1 V c 1 t) (ix2 p q)
      = biasRelu (V c main_v45) (V c main_v48) (((cfg1.win 2).blk t).view.emb (ix2 p q))
  rw [hemb]
  refine entry_eq _ _ _ _ p _ q ?_ ?_
  · show V c main_v45 (((cfg1.win 0).blk t).view.emb (ix2 p q)) = V c main_v45 (ix2 _ q)
    refine congrArg _ ?_
    funext a; apply Fin.ext
    match a with
    | ⟨0, _⟩ => show win1_0.index t (0 : Fin 2) * 10000 + 1 * p.val = win1_2.index t (0 : Fin 2) * 10000 + p.val; omega
    | ⟨1, _⟩ => show win1_0.index t (1 : Fin 2) * 128 + 1 * q.val = q.val; omega
  · show V c main_v48 (((cfg1.win 1).blk t).view.emb (ix2 0 q)) = V c main_v48 (ix2 0 q)
    refine congrArg _ ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega

/-- An index of the result array is in point t's block iff each coordinate is in the block's range on its axis. -/
theorem mem_blk (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v49).slice (win1_2.rect t)).set ↔ _
  rw [View.set_slice_whole, Rect.mem_set_unit]
  exact Iff.rfl

/-- Row r is in the block of the point whose block index is r / 10000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- After the stage the result array is the bias-then-clamp of the array and the row as the stage found them. -/
theorem final (c : Dev nD) :
    (dat1 (F := Ideal) V c).arrAt 2 cfg1.N = biasRelu (V c main_v45) (V c main_v48) :=
  (dat1 (F := Ideal) V c).arrAt_eq_of_cover 2 _ (fun t _ => flushed_eq V c t) cover

end Cert.KernelIdeal.Region1

end
-- ==== Proof.Region2.lean ====
/-
  The second matrix-product stage as a whole-array function. The rows are cut into ten blocks of 10000; grid point t
  multiplies block t of the left array by the whole 128×128 right array and writes block t of the result. An entry of
  a product depends on one row of the left operand, so block t of the result is block t of the product of the whole
  arrays, and the ten blocks cover every row: after the stage the result array is the product of the two arrays as the
  stage found them.
-/
import proofs.«145236_j10685878632941_1_alg».proof.Proof.Gen.KernelIdeal.Frame
import proofs.«145236_j10685878632941_1_alg».proof.Proof.Bodies
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.MatProd

variable (V : (c : Dev nD) → (b : Ref sig .tc) → Buf (Elt Ideal) ((c : Thread nD τ).loc b))

theorem zero_offset : (![0, 0] : Fin 2 → Nat) = fun _ => 0 := funext fun a => by fin_cases a <;> rfl

/-- The index maps over the grid: point t reads rows-block t of the left array and the one block of the right array,
    and writes rows-block t. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every rows-block is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- Rows of a product: if row p of A' is row r of A and B' is B, entry (p, q) of A'·B' is entry (r, q) of A·B. -/
theorem product_rows (A : S100000x128.Idx → EReal) (B : S128x128.Idx → EReal) (A' : S10000x128.Idx → EReal)
    (B' : S128x128.Idx → EReal) (p : Fin 10000) (r : Fin 100000) (q : Fin 128)
    (hA : ∀ k : Fin 128, A' (ix2 p k) = A (ix2 r k)) (hB : ∀ k : Fin 128, B' (ix2 k q) = B (ix2 k q)) :
    matProd A' B' (ix2 p q) = matProd A B (ix2 r q) :=
  matProd_block A A' B B' p q r q hA hB

/-- What point t writes back is block t of the product of the two whole arrays. -/
theorem flushed_eq (c : Dev nD) (t : Fin cfg2.N) :
    (dat2 (F := Ideal) V c).flushed 2 t
      = ((cfg2.win 2).blk t).view.read (Elt Ideal) (matProd (V c main_v49) (V c main_v51)) := by
  show (cfg2.win 2).cut (grid2.coords t) ((dat2 V c).after 2 t) = _
  rw [after2_2]
  unfold out2_2
  rw [View.canon_unit_zero zero_offset]
  simp only [View.ld_unit_zero (S := S10000x128) zero_offset, View.ld_unit_zero (S := S128x128) zero_offset]
  rw [Bodies.product2]
  obtain ⟨e0, e1, e2, e3, e4, e5⟩ := idx_facts t
  funext j
  obtain ⟨p, q, rfl⟩ : ∃ (p : Fin 10000) (q : Fin 128), j = ix2 p q := ⟨j 0, j 1, eq_ix2 j⟩
  have hr : win2_2.index t (0 : Fin 2) * 10000 + p.val < 100000 := by have := p.isLt; omega
  have hemb : ((cfg2.win 2).blk t).view.emb (ix2 p q)
      = ix2 (⟨win2_2.index t (0 : Fin 2) * 10000 + p.val, hr⟩ : Fin 100000) q := by
    funext a; apply Fin.ext
    match a with
    | ⟨0, _⟩ => show win2_2.index t (0 : Fin 2) * 10000 + 1 * p.val = win2_2.index t (0 : Fin 2) * 10000 + p.val; omega
    | ⟨1, _⟩ => show win2_2.index t (1 : Fin 2) * 128 + 1 * q.val = q.val; omega
  show matProd (iblk2 V c 0 t) (iblk2 V c 1 t) (ix2 p q)
      = matProd (V c main_v49) (V c main_v51) (((cfg2.win 2).blk t).view.emb (ix2 p q))
  rw [hemb]
  refine product_rows _ _ _ _ p _ q (fun k => ?_) (fun k => ?_)
  · show V c main_v49 (((cfg2.win 0).blk t).view.emb (ix2 p k)) = V c main_v49 (ix2 _ k)
    refine congrArg _ ?_
    funext a; apply Fin.ext
    match a with
    | ⟨0, _⟩ => show win2_0.index t (0 : Fin 2) * 10000 + 1 * p.val = win2_2.index t (0 : Fin 2) * 10000 + p.val; omega
    | ⟨1, _⟩ => show win2_0.index t (1 : Fin 2) * 128 + 1 * k.val = k.val; omega
  · show V c main_v51 (((cfg2.win 1).blk t).view.emb (ix2 k q)) = V c main_v51 (ix2 k q)
    refine congrArg _ ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega

/-- An index of the result array is in point t's block iff each coordinate is in the block's range on its axis. -/
theorem mem_blk (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v52).slice (win2_2.rect t)).set ↔ _
  rw [View.set_slice_whole, Rect.mem_set_unit]
  exact Iff.rfl

/-- Row r is in the block of the point whose block index is r / 10000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 128 ≤ (i 1).val ∧ (i 1).val < win2_2.index t (1 : Fin 2) * 128 + 128
    omega

/-- After the stage the result array is the product of the two arrays as the stage found them. -/
theorem final (c : Dev nD) :
    (dat2 (F := Ideal) V c).arrAt 2 cfg2.N = matProd (V c main_v49) (V c main_v51) :=
  (dat2 (F := Ideal) V c).arrAt_eq_of_cover 2 _ (fun t _ => flushed_eq V c t) cover

end Cert.KernelIdeal.Region2

end
-- ==== Proof.Region3.lean ====
/-
  The second bias-and-clamp stage as a whole-array function. Grid point t takes block t of the rows of the aggregated
  array and the one 1×128 bias row, adds the row to every row of the block, joins with zero, and writes block t of the
  result. An entry depends on one entry of the aggregated array and one entry of the row, so block t of the result is
  block t of the bias-then-clamp of the whole array, and the ten blocks cover every row.
-/
import proofs.«145236_j10685878632941_1_alg».proof.Proof.Gen.KernelIdeal.Frame
import proofs.«145236_j10685878632941_1_alg».proof.Proof.Bodies
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.BiasRelu

variable (V : (c : Dev nD) → (b : Ref sig .tc) → Buf (Elt Ideal) ((c : Thread nD τ).loc b))

theorem zero_offset : (![0, 0] : Fin 2 → Nat) = fun _ => 0 := funext fun a => by fin_cases a <;> rfl

/-- The index maps over the grid: point t reads rows-block t of the array and the one block of the bias row, and writes
    rows-block t. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every rows-block is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- One entry: equal entries of the array and equal entries of the row give equal results. -/
theorem entry_eq (X : S100000x128.Idx → EReal) (b : S1x128.Idx → EReal) (X' : S10000x128.Idx → EReal)
    (b' : S1x128.Idx → EReal) (p : Fin 10000) (r : Fin 100000) (q : Fin 128)
    (hX : X' (ix2 p q) = X (ix2 r q)) (hb : b' (ix2 0 q) = b (ix2 0 q)) :
    biasRelu X' b' (ix2 p q) = biasRelu X b (ix2 r q) := by
  rw [biasRelu_apply, biasRelu_apply, hX, hb]

/-- What point t writes back is block t of the bias-then-clamp of the whole array. -/
theorem flushed_eq (c : Dev nD) (t : Fin cfg3.N) :
    (dat3 (F := Ideal) V c).flushed 2 t
      = ((cfg3.win 2).blk t).view.read (Elt Ideal) (biasRelu (V c main_v64) (V c main_v67)) := by
  show (cfg3.win 2).cut (grid3.coords t) ((dat3 V c).after 2 t) = _
  rw [after3_2]
  unfold out3_2
  rw [View.canon_unit_zero zero_offset]
  simp only [View.ld_unit_zero (S := S10000x128) zero_offset, View.ld_unit_zero (S := S1x128) zero_offset]
  rw [Bodies.biasClamp3]
  obtain ⟨e0, e1, e2, e3, e4, e5⟩ := idx_facts t
  funext j
  obtain ⟨p, q, rfl⟩ : ∃ (p : Fin 10000) (q : Fin 128), j = ix2 p q := ⟨j 0, j 1, eq_ix2 j⟩
  have hr : win3_2.index t (0 : Fin 2) * 10000 + p.val < 100000 := by have := p.isLt; omega
  have hemb : ((cfg3.win 2).blk t).view.emb (ix2 p q)
      = ix2 (⟨win3_2.index t (0 : Fin 2) * 10000 + p.val, hr⟩ : Fin 100000) q := by
    funext a; apply Fin.ext
    match a with
    | ⟨0, _⟩ => show win3_2.index t (0 : Fin 2) * 10000 + 1 * p.val = win3_2.index t (0 : Fin 2) * 10000 + p.val; omega
    | ⟨1, _⟩ => show win3_2.index t (1 : Fin 2) * 128 + 1 * q.val = q.val; omega
  show biasRelu (iblk3 V c 0 t) (iblk3 V c 1 t) (ix2 p q)
      = biasRelu (V c main_v64) (V c main_v67) (((cfg3.win 2).blk t).view.emb (ix2 p q))
  rw [hemb]
  refine entry_eq _ _ _ _ p _ q ?_ ?_
  · show V c main_v64 (((cfg3.win 0).blk t).view.emb (ix2 p q)) = V c main_v64 (ix2 _ q)
    refine congrArg _ ?_
    funext a; apply Fin.ext
    match a with
    | ⟨0, _⟩ => show win3_0.index t (0 : Fin 2) * 10000 + 1 * p.val = win3_2.index t (0 : Fin 2) * 10000 + p.val; omega
    | ⟨1, _⟩ => show win3_0.index t (1 : Fin 2) * 128 + 1 * q.val = q.val; omega
  · show V c main_v67 (((cfg3.win 1).blk t).view.emb (ix2 0 q)) = V c main_v67 (ix2 0 q)
    refine congrArg _ ?_
    funext a; apply Fin.ext
    match a with
    | ⟨0, _⟩ => show win3_1.index t (0 : Fin 2) * 1 + 1 * 0 = 0; omega
    | ⟨1, _⟩ => show win3_1.index t (1 : Fin 2) * 128 + 1 * q.val = q.val; omega

/-- An index of the result array is in point t's block iff each coordinate is in the block's range on its axis. -/
theorem mem_blk (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v68).slice (win3_2.rect t)).set ↔ _
  rw [View.set_slice_whole, Rect.mem_set_unit]
  exact Iff.rfl

/-- Row r is in the block of the point whose block index is r / 10000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 128 ≤ (i 1).val ∧ (i 1).val < win3_2.index t (1 : Fin 2) * 128 + 128
    omega

/-- After the stage the result array is the bias-then-clamp of the array and the row as the stage found them. -/
theorem final (c : Dev nD) :
    (dat3 (F := Ideal) V c).arrAt 2 cfg3.N = biasRelu (V c main_v64) (V c main_v67) :=
  (dat3 (F := Ideal) V c).arrAt_eq_of_cover 2 _ (fun t _ => flushed_eq V c t) cover

end Cert.KernelIdeal.Region3

end
-- ==== Proof.Region4.lean ====
/-
  The third matrix-product stage as a whole-array function. The rows are cut into ten blocks of 10000; grid point t
  multiplies block t of the left array by the whole 128×128 right array and writes block t of the result. An entry of
  a product depends on one row of the left operand, so block t of the result is block t of the product of the whole
  arrays, and the ten blocks cover every row: after the stage the result array is the product of the two arrays as the
  stage found them.
-/
import proofs.«145236_j10685878632941_1_alg».proof.Proof.Gen.KernelIdeal.Frame
import proofs.«145236_j10685878632941_1_alg».proof.Proof.Bodies
import Idealize.ShloMosaic.Lib.Pipeline.Value
import Idealize.ShloMosaic.Lib.ValueIdx

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.MatProd

variable (V : (c : Dev nD) → (b : Ref sig .tc) → Buf (Elt Ideal) ((c : Thread nD τ).loc b))

theorem zero_offset : (![0, 0] : Fin 2 → Nat) = fun _ => 0 := funext fun a => by fin_cases a <;> rfl

/-- The index maps over the grid: point t reads rows-block t of the left array and the one block of the right array,
    and writes rows-block t. -/
theorem idx_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every rows-block is some point's. -/
theorem idx_onto : ∀ q0 : Fin 10, ∃ t : Fin cfg4.N, win4_2.index t = ![q0.val, 0] :=
  (by decide +kernel : ∀ q0 : Fin 10, ∃ t : Fin grid4.N, win4_2.index t = ![q0.val, 0])

/-- Rows of a product: if row p of A' is row r of A and B' is B, entry (p, q) of A'·B' is entry (r, q) of A·B. -/
theorem product_rows (A : S100000x128.Idx → EReal) (B : S128x128.Idx → EReal) (A' : S10000x128.Idx → EReal)
    (B' : S128x128.Idx → EReal) (p : Fin 10000) (r : Fin 100000) (q : Fin 128)
    (hA : ∀ k : Fin 128, A' (ix2 p k) = A (ix2 r k)) (hB : ∀ k : Fin 128, B' (ix2 k q) = B (ix2 k q)) :
    matProd A' B' (ix2 p q) = matProd A B (ix2 r q) :=
  matProd_block A A' B B' p q r q hA hB

/-- What point t writes back is block t of the product of the two whole arrays. -/
theorem flushed_eq (c : Dev nD) (t : Fin cfg4.N) :
    (dat4 (F := Ideal) V c).flushed 2 t
      = ((cfg4.win 2).blk t).view.read (Elt Ideal) (matProd (V c main_v68) (V c main_v70)) := by
  show (cfg4.win 2).cut (grid4.coords t) ((dat4 V c).after 2 t) = _
  rw [after4_2]
  unfold out4_2
  rw [View.canon_unit_zero zero_offset]
  simp only [View.ld_unit_zero (S := S10000x128) zero_offset, View.ld_unit_zero (S := S128x128) zero_offset]
  rw [Bodies.product4]
  obtain ⟨e0, e1, e2, e3, e4, e5⟩ := idx_facts t
  funext j
  obtain ⟨p, q, rfl⟩ : ∃ (p : Fin 10000) (q : Fin 128), j = ix2 p q := ⟨j 0, j 1, eq_ix2 j⟩
  have hr : win4_2.index t (0 : Fin 2) * 10000 + p.val < 100000 := by have := p.isLt; omega
  have hemb : ((cfg4.win 2).blk t).view.emb (ix2 p q)
      = ix2 (⟨win4_2.index t (0 : Fin 2) * 10000 + p.val, hr⟩ : Fin 100000) q := by
    funext a; apply Fin.ext
    match a with
    | ⟨0, _⟩ => show win4_2.index t (0 : Fin 2) * 10000 + 1 * p.val = win4_2.index t (0 : Fin 2) * 10000 + p.val; omega
    | ⟨1, _⟩ => show win4_2.index t (1 : Fin 2) * 128 + 1 * q.val = q.val; omega
  show matProd (iblk4 V c 0 t) (iblk4 V c 1 t) (ix2 p q)
      = matProd (V c main_v68) (V c main_v70) (((cfg4.win 2).blk t).view.emb (ix2 p q))
  rw [hemb]
  refine product_rows _ _ _ _ p _ q (fun k => ?_) (fun k => ?_)
  · show V c main_v68 (((cfg4.win 0).blk t).view.emb (ix2 p k)) = V c main_v68 (ix2 _ k)
    refine congrArg _ ?_
    funext a; apply Fin.ext
    match a with
    | ⟨0, _⟩ => show win4_0.index t (0 : Fin 2) * 10000 + 1 * p.val = win4_2.index t (0 : Fin 2) * 10000 + p.val; omega
    | ⟨1, _⟩ => show win4_0.index t (1 : Fin 2) * 128 + 1 * k.val = k.val; omega
  · show V c main_v70 (((cfg4.win 1).blk t).view.emb (ix2 k q)) = V c main_v70 (ix2 k q)
    refine congrArg _ ?_
    funext a; apply Fin.ext
    match a with
    | ⟨0, _⟩ => show win4_1.index t (0 : Fin 2) * 128 + 1 * k.val = k.val; omega
    | ⟨1, _⟩ => show win4_1.index t (1 : Fin 2) * 128 + 1 * q.val = q.val; omega

/-- An index of the result array is in point t's block iff each coordinate is in the block's range on its axis. -/
theorem mem_blk (t : Fin cfg4.N) (i : S100000x128.Idx) :
    i ∈ ((cfg4.win 2).blk t).view.set ↔ ∀ a : Fin 2, win4_2.index t a * S10000x128.size a ≤ (i a).val
      ∧ (i a).val < win4_2.index t a * S10000x128.size a + S10000x128.size a := by
  show i ∈ ((View.whole main_v71).slice (win4_2.rect t)).set ↔ _
  rw [View.set_slice_whole, Rect.mem_set_unit]
  exact Iff.rfl

/-- Row r is in the block of the point whose block index is r / 10000. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := idx_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk]
  intro a
  match a with
  | ⟨0, _⟩ =>
    show win4_2.index t (0 : Fin 2) * 10000 ≤ (i 0).val ∧ (i 0).val < win4_2.index t (0 : Fin 2) * 10000 + 10000
    omega
  | ⟨1, _⟩ =>
    show win4_2.index t (1 : Fin 2) * 128 ≤ (i 1).val ∧ (i 1).val < win4_2.index t (1 : Fin 2) * 128 + 128
    omega

/-- After the stage the result array is the product of the two arrays as the stage found them. -/
theorem final (c : Dev nD) :
    (dat4 (F := Ideal) V c).arrAt 2 cfg4.N = matProd (V c main_v68) (V c main_v70) :=
  (dat4 (F := Ideal) V c).arrAt_eq_of_cover 2 _ (fun t _ => flushed_eq V c t) cover

end Cert.KernelIdeal.Region4

end
-- ==== Proof.Region5.lean ====
/-
  The third bias-and-clamp stage as a whole-array function. Grid point t takes block t of the rows of the aggregated
  array and the one 1×128 bias row, adds the row to every row of the block, joins with zero, and writes block t of the
  result. An entry depends on one entry of the aggregated array and one entry of the row, so block t of the result is
  block t of the bias-then-clamp of the whole array, and the ten blocks cover every row.
-/
import proofs.«145236_j10685878632941_1_alg».proof.Proof.Gen.KernelIdeal.Frame
import proofs.«145236_j10685878632941_1_alg».proof.Proof.Bodies
import Idealize.ShloMosaic.Lib.Pipeline.Value
import Idealize.ShloMosaic.Lib.ValueIdx

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.BiasRelu

variable (V : (c : Dev nD) → (b : Ref sig .tc) → Buf (Elt Ideal) ((c : Thread nD τ).loc b))

theorem zero_offset : (![0, 0] : Fin 2 → Nat) = fun _ => 0 := funext fun a => by fin_cases a <;> rfl

/-- The index maps over the grid: point t reads rows-block t of the array and the one block of the bias row, and writes
    rows-block t. -/
theorem idx_facts : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 ∧ win5_2.index t (0 : Fin 2) ≤ 9 :=
  (by decide +kernel : ∀ t : Fin grid5.N, _)

/-- Every rows-block is some point's. -/
theorem idx_onto : ∀ q0 : Fin 10, ∃ t : Fin cfg5.N, win5_2.index t = ![q0.val, 0] :=
  (by decide +kernel : ∀ q0 : Fin 10, ∃ t : Fin grid5.N, win5_2.index t = ![q0.val, 0])

/-- One entry: equal entries of the array and equal entries of the row give equal results. -/
theorem entry_eq (X : S100000x128.Idx → EReal) (b : S1x128.Idx → EReal) (X' : S10000x128.Idx → EReal)
    (b' : S1x128.Idx → EReal) (p : Fin 10000) (r : Fin 100000) (q : Fin 128)
    (hX : X' (ix2 p q) = X (ix2 r q)) (hb : b' (ix2 0 q) = b (ix2 0 q)) :
    biasRelu X' b' (ix2 p q) = biasRelu X b (ix2 r q) := by
  rw [biasRelu_apply, biasRelu_apply, hX, hb]

/-- What point t writes back is block t of the bias-then-clamp of the whole array. -/
theorem flushed_eq (c : Dev nD) (t : Fin cfg5.N) :
    (dat5 (F := Ideal) V c).flushed 2 t
      = ((cfg5.win 2).blk t).view.read (Elt Ideal) (biasRelu (V c main_v83) (V c main_v86)) := by
  show (cfg5.win 2).cut (grid5.coords t) ((dat5 V c).after 2 t) = _
  rw [after5_2]
  unfold out5_2
  rw [View.canon_unit_zero zero_offset]
  simp only [View.ld_unit_zero (S := S10000x128) zero_offset, View.ld_unit_zero (S := S1x128) zero_offset]
  rw [Bodies.biasClamp5]
  obtain ⟨e0, e1, e2, e3, e4, e5⟩ := idx_facts t
  funext j
  obtain ⟨p, q, rfl⟩ : ∃ (p : Fin 10000) (q : Fin 128), j = ix2 p q := ⟨j 0, j 1, eq_ix2 j⟩
  have hr : win5_2.index t (0 : Fin 2) * 10000 + p.val < 100000 := by have := p.isLt; omega
  have hemb : ((cfg5.win 2).blk t).view.emb (ix2 p q)
      = ix2 (⟨win5_2.index t (0 : Fin 2) * 10000 + p.val, hr⟩ : Fin 100000) q := by
    funext a; apply Fin.ext
    match a with
    | ⟨0, _⟩ => show win5_2.index t (0 : Fin 2) * 10000 + 1 * p.val = win5_2.index t (0 : Fin 2) * 10000 + p.val; omega
    | ⟨1, _⟩ => show win5_2.index t (1 : Fin 2) * 128 + 1 * q.val = q.val; omega
  show biasRelu (iblk5 V c 0 t) (iblk5 V c 1 t) (ix2 p q)
      = biasRelu (V c main_v83) (V c main_v86) (((cfg5.win 2).blk t).view.emb (ix2 p q))
  rw [hemb]
  refine entry_eq _ _ _ _ p _ q ?_ ?_
  · show V c main_v83 (((cfg5.win 0).blk t).view.emb (ix2 p q)) = V c main_v83 (ix2 _ q)
    refine congrArg _ ?_
    funext a; apply Fin.ext
    match a with
    | ⟨0, _⟩ => show win5_0.index t (0 : Fin 2) * 10000 + 1 * p.val = win5_2.index t (0 : Fin 2) * 10000 + p.val; omega
    | ⟨1, _⟩ => show win5_0.index t (1 : Fin 2) * 128 + 1 * q.val = q.val; omega
  · show V c main_v86 (((cfg5.win 1).blk t).view.emb (ix2 0 q)) = V c main_v86 (ix2 0 q)
    refine congrArg _ ?_
    funext a; apply Fin.ext
    match a with
    | ⟨0, _⟩ => show win5_1.index t (0 : Fin 2) * 1 + 1 * 0 = 0; omega
    | ⟨1, _⟩ => show win5_1.index t (1 : Fin 2) * 128 + 1 * q.val = q.val; omega

/-- An index of the result array is in point t's block iff each coordinate is in the block's range on its axis. -/
theorem mem_blk (t : Fin cfg5.N) (i : S100000x128.Idx) :
    i ∈ ((cfg5.win 2).blk t).view.set ↔ ∀ a : Fin 2, win5_2.index t a * S10000x128.size a ≤ (i a).val
      ∧ (i a).val < win5_2.index t a * S10000x128.size a + S10000x128.size a := by
  show i ∈ ((View.whole main_v87).slice (win5_2.rect t)).set ↔ _
  rw [View.set_slice_whole, Rect.mem_set_unit]
  exact Iff.rfl

/-- Row r is in the block of the point whose block index is r / 10000. -/
theorem cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ := idx_onto ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_blk]
  intro a
  match a with
  | ⟨0, _⟩ =>
    show win5_2.index t (0 : Fin 2) * 10000 ≤ (i 0).val ∧ (i 0).val < win5_2.index t (0 : Fin 2) * 10000 + 10000
    omega
  | ⟨1, _⟩ =>
    show win5_2.index t (1 : Fin 2) * 128 ≤ (i 1).val ∧ (i 1).val < win5_2.index t (1 : Fin 2) * 128 + 128
    omega

/-- After the stage the result array is the bias-then-clamp of the array and the row as the stage found them. -/
theorem final (c : Dev nD) :
    (dat5 (F := Ideal) V c).arrAt 2 cfg5.N = biasRelu (V c main_v83) (V c main_v86) :=
  (dat5 (F := Ideal) V c).arrAt_eq_of_cover 2 _ (fun t _ => flushed_eq V c t) cover

end Cert.KernelIdeal.Region5

end
-- ==== Proof.Spec.lean ====
/-
  The network as a function of whole arrays, on the extended reals.

  Three graph-convolution layers over 100000 nodes with 128 features. The edge list, with one self-loop per node
  appended, gives a source node and a target node per edge, and a weight per edge (the product of the two end nodes'
  inverse-square-root degrees). One layer sends the node features through a 128×128 matrix; then every edge takes its
  source node's row, multiplies it by the edge's weight and adds it into its target node's row, starting from zeros
  (`agg`); then a bias row is added to every row and the result is joined with zero. The edge lists and weights are
  the same in all three layers. The sum over the edges into a node is kept as the one aggregation operation both
  programs apply: nothing below ever looks inside it.
-/
import proofs.«145236_j10685878632941_1_alg».proof.Proof.Gen.ReferenceIdeal
import proofs.«145236_j10685878632941_1_alg».proof.Proof.LibMatProd
import proofs.«145236_j10685878632941_1_alg».proof.Proof.LibBiasRelu

noncomputable section

namespace Cert.Gcn

open Idealize.ShloMosaic Cert.ReferenceIdeal Cert.ReferenceIdeal.Gen
open Cert.Lib.MatProd Cert.Lib.BiasRelu Cert.Lib.RowVector

/-- Node features: 100000 rows of 128. -/
abbrev Feat := (⟨S100000x128, .f32⟩ : BufTy).Contents (Elt Ideal)
/-- One node index per edge (1600000 edges and 100000 self-loops). -/
abbrev EdgeIx := (⟨S1700000, .i32⟩ : BufTy).Contents (Elt Ideal)
/-- One weight per edge, as a column. -/
abbrev EdgeWt := (⟨S1700000x1, .f32⟩ : BufTy).Contents (Elt Ideal)

/-- One value per node. -/
abbrev NodeVal := (⟨S100000, .f32⟩ : BufTy).Contents (Elt Ideal)

/-- A node's factor: the inverse square root of its degree where the degree is positive, and the given scalar (zero)
    elsewhere. -/
def nodeFactor (pos : (⟨S100000, .i1⟩ : BufTy).Contents (Elt Ideal)) (rs : NodeVal)
    (z : (⟨S_, .f32⟩ : BufTy).Contents (Elt Ideal)) : NodeVal :=
  select pos rs (broadcastInDim S100000 ![] bcast_S_S100000 (id z))

/-- The weight of every edge: the factors of its two end nodes (a negative node index wrapped by the node count)
    multiplied, as a column. -/
def edgeWeights (src dst : EdgeIx) (f : NodeVal) : EdgeWt :=
  broadcastInDim S1700000x1 ![0] bcast_S1700000_S1700000x1_0
    ((mulf
      (Host.gather gather_S100000_S1700000x1_S1700000_n_0_n_n_0_1_1 f
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      (Host.gather gather_S100000_S1700000x1_S1700000_n_0_n_n_0_1_1 f
        (broadcastInDim S1700000x1 ![0] bcast_S1700000_S1700000x1_0
          (select (cmpi .slt dst (broadcastInDim S1700000 ![] bcast_S_S1700000 (constantI S_ 32 0#32)))
            (addi dst (broadcastInDim S1700000 ![] bcast_S_S1700000 (constantI S_ 32 100000#32))) dst))) :
      FVec Ideal S1700000 .f32))

/-- The aggregation: each edge's source row (a negative source index wrapped by the node count), times the edge's
    weight, summed into the edge's target row, from zeros. -/
def agg (src dst : EdgeIx) (nrm : EdgeWt) (h : Feat) : Feat :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (mulf
      (Host.gather gather_S100000x128_S1700000x1_S1700000x128_1_0_n_n_0_1_1128 h
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      (broadcastInDim S1700000x128 ![0, 1] bcast_S1700000x1_S1700000x128_0_1 nrm))

/-- One layer: the features times the weight matrix, aggregated along the edges, plus the bias row, joined with
    zero. -/
def layer (src dst : EdgeIx) (nrm : EdgeWt) (x : Feat) (W : (⟨S128x128, .f32⟩ : BufTy).Contents (Elt Ideal))
    (b : (⟨S128, .f32⟩ : BufTy).Contents (Elt Ideal)) : Feat :=
  biasRelu (agg src dst nrm (matProd x W)) (asRow b)

/-- The three layers in a row. -/
def net (src dst : EdgeIx) (nrm : EdgeWt) (x : Feat)
    (W0 W1 W2 : (⟨S128x128, .f32⟩ : BufTy).Contents (Elt Ideal))
    (b0 b1 b2 : (⟨S128, .f32⟩ : BufTy).Contents (Elt Ideal)) : Feat :=
  layer src dst nrm (layer src dst nrm (layer src dst nrm x W0 b0) W1 b1) W2 b2

end Cert.Gcn

end
-- ==== Proof.HostStretches.lean ====
/-
  What the host operations between the launched stages compute, as functions of the buffer contents they start from.
  Before the first stage: the source and target node of every edge (the edge list's two rows, each followed by the
  self-loops 0 … 99999), the edge weights (from the node degrees, themselves a scatter-add of ones along the target
  list), and the first layer's weight matrix. Between stages: the aggregation of the product just computed, the
  layer's bias row, and the next layer's weight matrix. Every other buffer a later stretch needs is left as it was.
  The contents are a variable `U` throughout; the edge lists and weights are named by the reference's own operations
  on the same argument, which are the same operations.
-/
import proofs.«145236_j10685878632941_1_alg».proof.Proof.Gen.KernelIdeal.Launch
import proofs.«145236_j10685878632941_1_alg».proof.Proof.RefRead
import proofs.«145236_j10685878632941_1_alg».proof.Proof.Spec
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.Lib.RowVector

/-! ## Before the first stage: three stretches -/

/-! ### The first: the edge lists, and per node whether its degree is positive and its inverse square root -/

/-- The source node of every edge. -/
theorem p0_src (U : Valuation τ sig (Elt Ideal)) :
    StableHlo.after (hostOps0 (F := Ideal)) U (Proc.devRef .tc main_v3) = Cert.ReferenceIdeal.ReadP.val_main_v3 (F := Ideal) (U (Proc.devRef .tc main_arg1)) := by
  after_results
  rfl

/-- The target node of every edge. -/
theorem p0_dst (U : Valuation τ sig (Elt Ideal)) :
    StableHlo.after (hostOps0 (F := Ideal)) U (Proc.devRef .tc main_v6) = Cert.ReferenceIdeal.ReadP.val_main_v6 (F := Ideal) (U (Proc.devRef .tc main_arg1)) := by
  after_results
  rfl

/-- Per node: is its degree positive. -/
theorem p0_pos (U : Valuation τ sig (Elt Ideal)) :
    StableHlo.after (hostOps0 (F := Ideal)) U (Proc.devRef .tc main_v12) = Cert.ReferenceIdeal.ReadP.val_main_v12 (F := Ideal) (U (Proc.devRef .tc main_arg1)) := by
  after_results
  rfl

/-- Per node: the inverse square root of its degree. -/
theorem p0_rsq (U : Valuation τ sig (Elt Ideal)) :
    StableHlo.after (hostOps0 (F := Ideal)) U (Proc.devRef .tc main_v13) = Cert.ReferenceIdeal.ReadP.val_main_v13 (F := Ideal) (U (Proc.devRef .tc main_arg1)) := by
  after_results
  rfl

/-- The zero the factor takes where the degree is not positive. -/
theorem p0_zero (U : Valuation τ sig (Elt Ideal)) :
    StableHlo.after (hostOps0 (F := Ideal)) U (Proc.devRef .tc main_cst_2) = Cert.ReferenceIdeal.ReadP.val_main_cst_2 (F := Ideal) := by
  after_results
  rfl

theorem p0_keep_arg0 (U : Valuation τ sig (Elt Ideal)) :
    StableHlo.after (hostOps0 (F := Ideal)) U (Proc.devRef .tc main_arg0) = U (Proc.devRef .tc main_arg0) := by
  after_results
theorem p0_keep_arg2 (U : Valuation τ sig (Elt Ideal)) :
    StableHlo.after (hostOps0 (F := Ideal)) U (Proc.devRef .tc main_arg2) = U (Proc.devRef .tc main_arg2) := by
  after_results
theorem p0_keep_arg3 (U : Valuation τ sig (Elt Ideal)) :
    StableHlo.after (hostOps0 (F := Ideal)) U (Proc.devRef .tc main_arg3) = U (Proc.devRef .tc main_arg3) := by
  after_results

/-! ### The second: the node factors -/

/-- The node factors. -/
theorem p1_factor (U : Valuation τ sig (Elt Ideal)) :
    StableHlo.after (hostOps0_1 (F := Ideal)) U (Proc.devRef .tc main_v14) = Cert.Gcn.nodeFactor (U (Proc.devRef .tc main_v12)) (U (Proc.devRef .tc main_v13)) (U (Proc.devRef .tc main_cst_2)) := by
  after_results
  rfl

theorem p1_keep_v3 (U : Valuation τ sig (Elt Ideal)) :
    StableHlo.after (hostOps0_1 (F := Ideal)) U (Proc.devRef .tc main_v3) = U (Proc.devRef .tc main_v3) := by
  after_results
theorem p1_keep_v6 (U : Valuation τ sig (Elt Ideal)) :
    StableHlo.after (hostOps0_1 (F := Ideal)) U (Proc.devRef .tc main_v6) = U (Proc.devRef .tc main_v6) := by
  after_results
theorem p1_keep_arg0 (U : Valuation τ sig (Elt Ideal)) :
    StableHlo.after (hostOps0_1 (F := Ideal)) U (Proc.devRef .tc main_arg0) = U (Proc.devRef .tc main_arg0) := by
  after_results
theorem p1_keep_arg2 (U : Valuation τ sig (Elt Ideal)) :
    StableHlo.after (hostOps0_1 (F := Ideal)) U (Proc.devRef .tc main_arg2) = U (Proc.devRef .tc main_arg2) := by
  after_results
theorem p1_keep_arg3 (U : Valuation τ sig (Elt Ideal)) :
    StableHlo.after (hostOps0_1 (F := Ideal)) U (Proc.devRef .tc main_arg3) = U (Proc.devRef .tc main_arg3) := by
  after_results

/-! ### The third: the edge weights and the first layer's weight matrix -/

set_option maxHeartbeats 4000000 in
/-- The edge weights. -/
theorem p2_weights (U : Valuation τ sig (Elt Ideal)) :
    StableHlo.after (hostOps0_2 (F := Ideal)) U (Proc.devRef .tc main_v30) = Cert.Gcn.edgeWeights (U (Proc.devRef .tc main_v3)) (U (Proc.devRef .tc main_v6)) (U (Proc.devRef .tc main_v14)) := by
  after_results_simp <;> rfl

/-- The first layer's weight matrix. -/
theorem p2_w (U : Valuation τ sig (Elt Ideal)) :
    StableHlo.after (hostOps0_2 (F := Ideal)) U (Proc.devRef .tc main_v32) = Cert.ReferenceIdeal.ReadP.val_main_v32 (F := Ideal) (U (Proc.devRef .tc main_arg2)) := by
  after_results
  rfl

theorem p2_keep_v3 (U : Valuation τ sig (Elt Ideal)) :
    StableHlo.after (hostOps0_2 (F := Ideal)) U (Proc.devRef .tc main_v3) = U (Proc.devRef .tc main_v3) := by
  after_results
theorem p2_keep_v6 (U : Valuation τ sig (Elt Ideal)) :
    StableHlo.after (hostOps0_2 (F := Ideal)) U (Proc.devRef .tc main_v6) = U (Proc.devRef .tc main_v6) := by
  after_results
theorem p2_keep_arg0 (U : Valuation τ sig (Elt Ideal)) :
    StableHlo.after (hostOps0_2 (F := Ideal)) U (Proc.devRef .tc main_arg0) = U (Proc.devRef .tc main_arg0) := by
  after_results
theorem p2_keep_arg2 (U : Valuation τ sig (Elt Ideal)) :
    StableHlo.after (hostOps0_2 (F := Ideal)) U (Proc.devRef .tc main_arg2) = U (Proc.devRef .tc main_arg2) := by
  after_results
theorem p2_keep_arg3 (U : Valuation τ sig (Elt Ideal)) :
    StableHlo.after (hostOps0_2 (F := Ideal)) U (Proc.devRef .tc main_arg3) = U (Proc.devRef .tc main_arg3) := by
  after_results

/-! ## The stretch before bias stage 1: the aggregation of main_v33, and the layer's bias row -/

set_option maxHeartbeats 4000000 in
/-- The aggregation: gather along the source list, scale by the edge weights, sum into the target rows. -/
theorem s1_agg (U : Valuation τ sig (Elt Ideal)) :
    StableHlo.after (hostOps1 (F := Ideal)) U (Proc.devRef .tc main_v45)
      = Cert.Gcn.agg (U (Proc.devRef .tc main_v3)) (U (Proc.devRef .tc main_v6)) (U (Proc.devRef .tc main_v30)) (U (Proc.devRef .tc main_v33)) := by
  after_results_simp <;> rfl

/-- The layer's bias vector, re-shaped to a 1×128 row. -/
theorem s1_row (U : Valuation τ sig (Elt Ideal)) :
    StableHlo.after (hostOps1 (F := Ideal)) U (Proc.devRef .tc main_v48)
      = asRow (Cert.ReferenceIdeal.ReadP.val_main_v47 (F := Ideal) (U (Proc.devRef .tc main_arg3))) := by
  after_results
  exact shapeCast_eq_asRow _ _

theorem s1_keep_v3 (U : Valuation τ sig (Elt Ideal)) :
    StableHlo.after (hostOps1 (F := Ideal)) U (Proc.devRef .tc main_v3) = U (Proc.devRef .tc main_v3) := by
  after_results
theorem s1_keep_v6 (U : Valuation τ sig (Elt Ideal)) :
    StableHlo.after (hostOps1 (F := Ideal)) U (Proc.devRef .tc main_v6) = U (Proc.devRef .tc main_v6) := by
  after_results
theorem s1_keep_v30 (U : Valuation τ sig (Elt Ideal)) :
    StableHlo.after (hostOps1 (F := Ideal)) U (Proc.devRef .tc main_v30) = U (Proc.devRef .tc main_v30) := by
  after_results
theorem s1_keep_arg2 (U : Valuation τ sig (Elt Ideal)) :
    StableHlo.after (hostOps1 (F := Ideal)) U (Proc.devRef .tc main_arg2) = U (Proc.devRef .tc main_arg2) := by
  after_results
theorem s1_keep_arg3 (U : Valuation τ sig (Elt Ideal)) :
    StableHlo.after (hostOps1 (F := Ideal)) U (Proc.devRef .tc main_arg3) = U (Proc.devRef .tc main_arg3) := by
  after_results

/-! ## The stretch before product stage 2: the layer's slice of the weights -/

/-- The layer's 128×128 weight matrix. -/
theorem s2_w (U : Valuation τ sig (Elt Ideal)) :
    StableHlo.after (hostOps2 (F := Ideal)) U (Proc.devRef .tc main_v51) = Cert.ReferenceIdeal.ReadP.val_main_v53 (F := Ideal) (U (Proc.devRef .tc main_arg2)) := by
  after_results
  rfl

theorem s2_keep_v49 (U : Valuation τ sig (Elt Ideal)) :
    StableHlo.after (hostOps2 (F := Ideal)) U (Proc.devRef .tc main_v49) = U (Proc.devRef .tc main_v49) := by
  after_results
theorem s2_keep_v3 (U : Valuation τ sig (Elt Ideal)) :
    StableHlo.after (hostOps2 (F := Ideal)) U (Proc.devRef .tc main_v3) = U (Proc.devRef .tc main_v3) := by
  after_results
theorem s2_keep_v6 (U : Valuation τ sig (Elt Ideal)) :
    StableHlo.after (hostOps2 (F := Ideal)) U (Proc.devRef .tc main_v6) = U (Proc.devRef .tc main_v6) := by
  after_results
theorem s2_keep_v30 (U : Valuation τ sig (Elt Ideal)) :
    StableHlo.after (hostOps2 (F := Ideal)) U (Proc.devRef .tc main_v30) = U (Proc.devRef .tc main_v30) := by
  after_results
theorem s2_keep_arg2 (U : Valuation τ sig (Elt Ideal)) :
    StableHlo.after (hostOps2 (F := Ideal)) U (Proc.devRef .tc main_arg2) = U (Proc.devRef .tc main_arg2) := by
  after_results
theorem s2_keep_arg3 (U : Valuation τ sig (Elt Ideal)) :
    StableHlo.after (hostOps2 (F := Ideal)) U (Proc.devRef .tc main_arg3) = U (Proc.devRef .tc main_arg3) := by
  after_results

/-! ## The stretch before bias stage 3: the aggregation of main_v52, and the layer's bias row -/

set_option maxHeartbeats 4000000 in
/-- The aggregation: gather along the source list, scale by the edge weights, sum into the target rows. -/
theorem s3_agg (U : Valuation τ sig (Elt Ideal)) :
    StableHlo.after (hostOps3 (F := Ideal)) U (Proc.devRef .tc main_v64)
      = Cert.Gcn.agg (U (Proc.devRef .tc main_v3)) (U (Proc.devRef .tc main_v6)) (U (Proc.devRef .tc main_v30)) (U (Proc.devRef .tc main_v52)) := by
  after_results_simp <;> rfl

/-- The layer's bias vector, re-shaped to a 1×128 row. -/
theorem s3_row (U : Valuation τ sig (Elt Ideal)) :
    StableHlo.after (hostOps3 (F := Ideal)) U (Proc.devRef .tc main_v67)
      = asRow (Cert.ReferenceIdeal.ReadP.val_main_v68 (F := Ideal) (U (Proc.devRef .tc main_arg3))) := by
  after_results
  exact shapeCast_eq_asRow _ _

theorem s3_keep_v3 (U : Valuation τ sig (Elt Ideal)) :
    StableHlo.after (hostOps3 (F := Ideal)) U (Proc.devRef .tc main_v3) = U (Proc.devRef .tc main_v3) := by
  after_results
theorem s3_keep_v6 (U : Valuation τ sig (Elt Ideal)) :
    StableHlo.after (hostOps3 (F := Ideal)) U (Proc.devRef .tc main_v6) = U (Proc.devRef .tc main_v6) := by
  after_results
theorem s3_keep_v30 (U : Valuation τ sig (Elt Ideal)) :
    StableHlo.after (hostOps3 (F := Ideal)) U (Proc.devRef .tc main_v30) = U (Proc.devRef .tc main_v30) := by
  after_results
theorem s3_keep_arg2 (U : Valuation τ sig (Elt Ideal)) :
    StableHlo.after (hostOps3 (F := Ideal)) U (Proc.devRef .tc main_arg2) = U (Proc.devRef .tc main_arg2) := by
  after_results
theorem s3_keep_arg3 (U : Valuation τ sig (Elt Ideal)) :
    StableHlo.after (hostOps3 (F := Ideal)) U (Proc.devRef .tc main_arg3) = U (Proc.devRef .tc main_arg3) := by
  after_results

/-! ## The stretch before product stage 4: the layer's slice of the weights -/

/-- The layer's 128×128 weight matrix. -/
theorem s4_w (U : Valuation τ sig (Elt Ideal)) :
    StableHlo.after (hostOps4 (F := Ideal)) U (Proc.devRef .tc main_v70) = Cert.ReferenceIdeal.ReadP.val_main_v74 (F := Ideal) (U (Proc.devRef .tc main_arg2)) := by
  after_results
  rfl

theorem s4_keep_v68 (U : Valuation τ sig (Elt Ideal)) :
    StableHlo.after (hostOps4 (F := Ideal)) U (Proc.devRef .tc main_v68) = U (Proc.devRef .tc main_v68) := by
  after_results
theorem s4_keep_v3 (U : Valuation τ sig (Elt Ideal)) :
    StableHlo.after (hostOps4 (F := Ideal)) U (Proc.devRef .tc main_v3) = U (Proc.devRef .tc main_v3) := by
  after_results
theorem s4_keep_v6 (U : Valuation τ sig (Elt Ideal)) :
    StableHlo.after (hostOps4 (F := Ideal)) U (Proc.devRef .tc main_v6) = U (Proc.devRef .tc main_v6) := by
  after_results
theorem s4_keep_v30 (U : Valuation τ sig (Elt Ideal)) :
    StableHlo.after (hostOps4 (F := Ideal)) U (Proc.devRef .tc main_v30) = U (Proc.devRef .tc main_v30) := by
  after_results
theorem s4_keep_arg2 (U : Valuation τ sig (Elt Ideal)) :
    StableHlo.after (hostOps4 (F := Ideal)) U (Proc.devRef .tc main_arg2) = U (Proc.devRef .tc main_arg2) := by
  after_results
theorem s4_keep_arg3 (U : Valuation τ sig (Elt Ideal)) :
    StableHlo.after (hostOps4 (F := Ideal)) U (Proc.devRef .tc main_arg3) = U (Proc.devRef .tc main_arg3) := by
  after_results

/-! ## The stretch before bias stage 5: the aggregation of main_v71, and the layer's bias row -/

set_option maxHeartbeats 4000000 in
/-- The aggregation: gather along the source list, scale by the edge weights, sum into the target rows. -/
theorem s5_agg (U : Valuation τ sig (Elt Ideal)) :
    StableHlo.after (hostOps5 (F := Ideal)) U (Proc.devRef .tc main_v83)
      = Cert.Gcn.agg (U (Proc.devRef .tc main_v3)) (U (Proc.devRef .tc main_v6)) (U (Proc.devRef .tc main_v30)) (U (Proc.devRef .tc main_v71)) := by
  after_results_simp <;> rfl

/-- The layer's bias vector, re-shaped to a 1×128 row. -/
theorem s5_row (U : Valuation τ sig (Elt Ideal)) :
    StableHlo.after (hostOps5 (F := Ideal)) U (Proc.devRef .tc main_v86)
      = asRow (Cert.ReferenceIdeal.ReadP.val_main_v89 (F := Ideal) (U (Proc.devRef .tc main_arg3))) := by
  after_results
  exact shapeCast_eq_asRow _ _

theorem s5_keep_v3 (U : Valuation τ sig (Elt Ideal)) :
    StableHlo.after (hostOps5 (F := Ideal)) U (Proc.devRef .tc main_v3) = U (Proc.devRef .tc main_v3) := by
  after_results
theorem s5_keep_v6 (U : Valuation τ sig (Elt Ideal)) :
    StableHlo.after (hostOps5 (F := Ideal)) U (Proc.devRef .tc main_v6) = U (Proc.devRef .tc main_v6) := by
  after_results
theorem s5_keep_v30 (U : Valuation τ sig (Elt Ideal)) :
    StableHlo.after (hostOps5 (F := Ideal)) U (Proc.devRef .tc main_v30) = U (Proc.devRef .tc main_v30) := by
  after_results
theorem s5_keep_arg2 (U : Valuation τ sig (Elt Ideal)) :
    StableHlo.after (hostOps5 (F := Ideal)) U (Proc.devRef .tc main_arg2) = U (Proc.devRef .tc main_arg2) := by
  after_results
theorem s5_keep_arg3 (U : Valuation τ sig (Elt Ideal)) :
    StableHlo.after (hostOps5 (F := Ideal)) U (Proc.devRef .tc main_arg3) = U (Proc.devRef .tc main_arg3) := by
  after_results

end Cert.KernelIdeal.Host

end
-- ==== Proof.RefValue.lean ====
/-
  The reference computes the network. Read one operation at a time, its three layers are: a dot_general with the
  layer's slice of the weights (the matrix product), the gather / multiply / scatter-add chain over the edge lists and
  weights computed once at the start (the aggregation), the layer's bias vector broadcast to a row and down the rows
  and added, and the maximum with a broadcast zero (the bias row joined with zero).
-/
import proofs.«145236_j10685878632941_1_alg».proof.Proof.RefRead
import proofs.«145236_j10685878632941_1_alg».proof.Proof.Spec

noncomputable section

namespace Cert.Gcn

open Idealize.ShloMosaic Cert.ReferenceIdeal Cert.ReferenceIdeal.Gen Cert.ReferenceIdeal.ReadP
open Cert.Lib.MatProd Cert.Lib.BiasRelu Cert.Lib.RowVector

variable (x0 : (⟨S100000x128, .f32⟩ : BufTy).Contents (Elt Ideal)) (x1 : (⟨S2x1600000, .i32⟩ : BufTy).Contents (Elt Ideal))
  (x2 : (⟨S3x128x128, .f32⟩ : BufTy).Contents (Elt Ideal)) (x3 : (⟨S3x128, .f32⟩ : BufTy).Contents (Elt Ideal))

/-- The reference's node factors: the inverse square root of the degree where it is positive, zero elsewhere. -/
theorem ref_factor : val_main_v14 (F := Ideal) x1
    = nodeFactor (val_main_v12 x1) (val_main_v13 x1) val_main_cst_2 := rfl

/-- The reference's edge weights are the end nodes' factors multiplied. -/
theorem ref_weights : val_main_v30 (F := Ideal) x1
    = edgeWeights (val_main_v3 x1) (val_main_v6 x1) (val_main_v14 x1) := rfl

/-- The reference's first aggregation is `agg` of its first product. -/
theorem ref_agg1 : val_main_v45 (F := Ideal) x0 x1 x2
    = agg (val_main_v3 x1) (val_main_v6 x1) (val_main_v30 x1) (val_main_v33 x0 x2) := rfl

/-- Its second. -/
theorem ref_agg2 : val_main_v66 (F := Ideal) x0 x1 x2 x3
    = agg (val_main_v3 x1) (val_main_v6 x1) (val_main_v30 x1) (val_main_v54 x0 x1 x2 x3) := rfl

/-- Its third. -/
theorem ref_agg3 : val_main_v87 (F := Ideal) x0 x1 x2 x3
    = agg (val_main_v3 x1) (val_main_v6 x1) (val_main_v30 x1) (val_main_v75 x0 x1 x2 x3) := rfl

/-- The host's dot_general of node features with a 128×128 matrix is the matrix product. -/
theorem ref_product (x : FVec Ideal S100000x128 .f32) (W : FVec Ideal S128x128 .f32) :
    Host.dotGeneral (F := Ideal) dot_S100000x128_S128x128_S100000x128_1_0_0_1_n_n none x W = matProd x W := by
  simp only [Host.dotGeneral]
  exact dotGeneral_eq_matProd (φ₁ := .f32) (φ₂ := .f32) dot_S100000x128_S128x128_S100000x128_1_0_0_1_n_n rfl rfl rfl rfl rfl rfl _ _ x W

/-- The first layer. -/
theorem ref_layer1 : val_main_v51 (F := Ideal) x0 x1 x2 x3
    = layer (val_main_v3 x1) (val_main_v6 x1) (val_main_v30 x1) x0 (val_main_v32 x2) (val_main_v47 x3) := by
  unfold val_main_v51 val_main_v50 val_main_v49 val_main_v48 val_main_call1_v0 val_main_call1_cst
  rw [host_eq, ref_agg1]
  unfold val_main_v33
  rw [ref_product]
  rfl

/-- The second layer, on the first layer's result. -/
theorem ref_layer2 : val_main_v72 (F := Ideal) x0 x1 x2 x3
    = layer (val_main_v3 x1) (val_main_v6 x1) (val_main_v30 x1) (val_main_v51 x0 x1 x2 x3) (val_main_v53 x2) (val_main_v68 x3) := by
  unfold val_main_v72 val_main_v71 val_main_v70 val_main_v69 val_main_call2_v0 val_main_call2_cst
  rw [host_eq, ref_agg2]
  unfold val_main_v54
  rw [ref_product]
  rfl

/-- The third layer, on the second layer's result. -/
theorem ref_layer3 : val_main_v93 (F := Ideal) x0 x1 x2 x3
    = layer (val_main_v3 x1) (val_main_v6 x1) (val_main_v30 x1) (val_main_v72 x0 x1 x2 x3) (val_main_v74 x2) (val_main_v89 x3) := by
  unfold val_main_v93 val_main_v92 val_main_v91 val_main_v90 val_main_call3_v0 val_main_call3_cst
  rw [host_eq, ref_agg3]
  unfold val_main_v75
  rw [ref_product]
  rfl

/-- The reference's result is the network of its arguments. -/
theorem ref_net : val_main_v93 (F := Ideal) x0 x1 x2 x3
    = net (val_main_v3 x1) (val_main_v6 x1) (val_main_v30 x1) x0 (val_main_v32 x2) (val_main_v53 x2) (val_main_v74 x2)
        (val_main_v47 x3) (val_main_v68 x3) (val_main_v89 x3) := by
  rw [ref_layer3, ref_layer2, ref_layer1]
  rfl

end Cert.Gcn

end
-- ==== Proof.KernelValue.lean ====
/-
  The program's result is the network of its arguments. Going through the fourteen stretches in order: the host
  operations before the first stage leave the edge lists, the edge weights and the first weight matrix; each product
  stage leaves the product of the current features with the layer's matrix; the host operations after it leave the
  aggregation of that product and the layer's bias row; each bias stage leaves the bias row added and joined with
  zero, which is the layer's output and the next layer's input. The edge lists, the edge weights and the two
  parameter arrays are written by nothing after the first stretch, so every later stretch finds them as they were.
-/
import proofs.«145236_j10685878632941_1_alg».proof.Proof.Gen.KernelIdeal.Frame
import proofs.«145236_j10685878632941_1_alg».proof.Proof.Region0
import proofs.«145236_j10685878632941_1_alg».proof.Proof.Region1
import proofs.«145236_j10685878632941_1_alg».proof.Proof.Region2
import proofs.«145236_j10685878632941_1_alg».proof.Proof.Region3
import proofs.«145236_j10685878632941_1_alg».proof.Proof.Region4
import proofs.«145236_j10685878632941_1_alg».proof.Proof.Region5
import proofs.«145236_j10685878632941_1_alg».proof.Proof.HostStretches
import proofs.«145236_j10685878632941_1_alg».proof.Proof.Spec
import proofs.«145236_j10685878632941_1_alg».proof.Proof.RefValue

set_option maxRecDepth 16384

noncomputable section

namespace Cert.KernelIdeal.Value

open Idealize.ShloMosaic Idealize.ShloMosaic.TcCoe Idealize.SL.Sem
open Cert.KernelIdeal Cert.KernelIdeal.Gen Cert.Gcn Cert.Lib.MatProd Cert.Lib.BiasRelu Cert.Lib.RowVector

variable (m : (ℓ : Loc nD τ sig) → Buf (Elt Ideal) ℓ) (ρ : Dev nD → PrngReg) (c : Dev nD)

/-- The source node of every edge, from the edge-list argument. -/
abbrev src : EdgeIx := Cert.ReferenceIdeal.ReadP.val_main_v3 (F := Ideal) (m ((c : Thread nD τ).loc main_arg1))
/-- The target node of every edge. -/
abbrev dst : EdgeIx := Cert.ReferenceIdeal.ReadP.val_main_v6 (F := Ideal) (m ((c : Thread nD τ).loc main_arg1))
/-- The weight of every edge. -/
abbrev nrm : EdgeWt := Cert.ReferenceIdeal.ReadP.val_main_v30 (F := Ideal) (m ((c : Thread nD τ).loc main_arg1))
/-- The three layers' weight matrices and bias vectors, from the two parameter arguments. -/
abbrev w0 := Cert.ReferenceIdeal.ReadP.val_main_v32 (F := Ideal) (m ((c : Thread nD τ).loc main_arg2))
abbrev w1 := Cert.ReferenceIdeal.ReadP.val_main_v53 (F := Ideal) (m ((c : Thread nD τ).loc main_arg2))
abbrev w2 := Cert.ReferenceIdeal.ReadP.val_main_v74 (F := Ideal) (m ((c : Thread nD τ).loc main_arg2))
abbrev b0 := Cert.ReferenceIdeal.ReadP.val_main_v47 (F := Ideal) (m ((c : Thread nD τ).loc main_arg3))
abbrev b1 := Cert.ReferenceIdeal.ReadP.val_main_v68 (F := Ideal) (m ((c : Thread nD τ).loc main_arg3))
abbrev b2 := Cert.ReferenceIdeal.ReadP.val_main_v89 (F := Ideal) (m ((c : Thread nD τ).loc main_arg3))
/-- The input features. -/
abbrev x0 : Feat := (m ((c : Thread nD τ).loc main_arg0))
/-- The first and second layers' outputs. -/
abbrev x1 : Feat := layer (src m c) (dst m c) (nrm m c) (x0 m c) (w0 m c) (b0 m c)
abbrev x2 : Feat := layer (src m c) (dst m c) (nrm m c) (x1 m c) (w1 m c) (b1 m c)

/-- What every stretch after the first needs and none of them writes: the edge lists, the edge weights, and the two
    parameter arrays. -/
structure Carried (U : Valuation τ sig (Elt Ideal)) : Prop where
  src : U (Proc.devRef .tc main_v3) = src m c
  dst : U (Proc.devRef .tc main_v6) = dst m c
  nrm : U (Proc.devRef .tc main_v30) = nrm m c
  w : U (Proc.devRef .tc main_arg2) = (m ((c : Thread nD τ).loc main_arg2))
  b : U (Proc.devRef .tc main_arg3) = (m ((c : Thread nD τ).loc main_arg3))

theorem Carried.stretch1 {U : Valuation τ sig (Elt Ideal)} (h : Carried m c U) :
    Carried m c (StableHlo.after (hostOps1 (F := Ideal)) U) where
  src := (Host.s1_keep_v3 U).trans h.src
  dst := (Host.s1_keep_v6 U).trans h.dst
  nrm := (Host.s1_keep_v30 U).trans h.nrm
  w := (Host.s1_keep_arg2 U).trans h.w
  b := (Host.s1_keep_arg3 U).trans h.b
theorem Carried.stretch2 {U : Valuation τ sig (Elt Ideal)} (h : Carried m c U) :
    Carried m c (StableHlo.after (hostOps2 (F := Ideal)) U) where
  src := (Host.s2_keep_v3 U).trans h.src
  dst := (Host.s2_keep_v6 U).trans h.dst
  nrm := (Host.s2_keep_v30 U).trans h.nrm
  w := (Host.s2_keep_arg2 U).trans h.w
  b := (Host.s2_keep_arg3 U).trans h.b
theorem Carried.stretch3 {U : Valuation τ sig (Elt Ideal)} (h : Carried m c U) :
    Carried m c (StableHlo.after (hostOps3 (F := Ideal)) U) where
  src := (Host.s3_keep_v3 U).trans h.src
  dst := (Host.s3_keep_v6 U).trans h.dst
  nrm := (Host.s3_keep_v30 U).trans h.nrm
  w := (Host.s3_keep_arg2 U).trans h.w
  b := (Host.s3_keep_arg3 U).trans h.b
theorem Carried.stretch4 {U : Valuation τ sig (Elt Ideal)} (h : Carried m c U) :
    Carried m c (StableHlo.after (hostOps4 (F := Ideal)) U) where
  src := (Host.s4_keep_v3 U).trans h.src
  dst := (Host.s4_keep_v6 U).trans h.dst
  nrm := (Host.s4_keep_v30 U).trans h.nrm
  w := (Host.s4_keep_arg2 U).trans h.w
  b := (Host.s4_keep_arg3 U).trans h.b
theorem Carried.stretch5 {U : Valuation τ sig (Elt Ideal)} (h : Carried m c U) :
    Carried m c (StableHlo.after (hostOps5 (F := Ideal)) U) where
  src := (Host.s5_keep_v3 U).trans h.src
  dst := (Host.s5_keep_v6 U).trans h.dst
  nrm := (Host.s5_keep_v30 U).trans h.nrm
  w := (Host.s5_keep_arg2 U).trans h.w
  b := (Host.s5_keep_arg3 U).trans h.b

/-- After the first two stretches the edge lists are the edge-list argument's two rows with the self-loops. -/
theorem src2 : W2 m ρ c (Proc.devRef .tc main_v3) = src m c := (Host.p1_keep_v3 (W1 m ρ c)).trans (Host.p0_src (W0 m ρ c))
theorem dst2 : W2 m ρ c (Proc.devRef .tc main_v6) = dst m c := (Host.p1_keep_v6 (W1 m ρ c)).trans (Host.p0_dst (W0 m ρ c))

/-- And the node factors are the reference's. -/
theorem factor2 : W2 m ρ c (Proc.devRef .tc main_v14) = Cert.ReferenceIdeal.ReadP.val_main_v14 (F := Ideal) (m ((c : Thread nD τ).loc main_arg1)) := by
  refine (Host.p1_factor (W1 m ρ c)).trans ?_
  rw [show W1 m ρ c (Proc.devRef .tc main_v12) = Cert.ReferenceIdeal.ReadP.val_main_v12 (F := Ideal) (m ((c : Thread nD τ).loc main_arg1)) from Host.p0_pos (W0 m ρ c),
    show W1 m ρ c (Proc.devRef .tc main_v13) = Cert.ReferenceIdeal.ReadP.val_main_v13 (F := Ideal) (m ((c : Thread nD τ).loc main_arg1)) from Host.p0_rsq (W0 m ρ c),
    show W1 m ρ c (Proc.devRef .tc main_cst_2) = Cert.ReferenceIdeal.ReadP.val_main_cst_2 (F := Ideal) from Host.p0_zero (W0 m ρ c)]
  exact (ref_factor (m ((c : Thread nD τ).loc main_arg1))).symm

/-- Before the first stage. -/
theorem carried3 : Carried m c (W3 m ρ c) where
  src := (Host.p2_keep_v3 (W2 m ρ c)).trans (src2 m ρ c)
  dst := (Host.p2_keep_v6 (W2 m ρ c)).trans (dst2 m ρ c)
  nrm := by
    refine (Host.p2_weights (W2 m ρ c)).trans ?_
    rw [src2 m ρ c, dst2 m ρ c, factor2 m ρ c]
    exact (ref_weights (m ((c : Thread nD τ).loc main_arg1))).symm
  w := (Host.p2_keep_arg2 (W2 m ρ c)).trans ((Host.p1_keep_arg2 (W1 m ρ c)).trans (Host.p0_keep_arg2 (W0 m ρ c)))
  b := (Host.p2_keep_arg3 (W2 m ρ c)).trans ((Host.p1_keep_arg3 (W1 m ρ c)).trans (Host.p0_keep_arg3 (W0 m ρ c)))

/-- The input features and the first weight matrix, as the first stage finds them. -/
theorem feat3 : W3 m ρ c (Proc.devRef .tc main_arg0) = x0 m c := (Host.p2_keep_arg0 (W2 m ρ c)).trans ((Host.p1_keep_arg0 (W1 m ρ c)).trans (Host.p0_keep_arg0 (W0 m ρ c)))
theorem weight3 : W3 m ρ c (Proc.devRef .tc main_v32) = w0 m c := by
  refine (Host.p2_w (W2 m ρ c)).trans ?_
  rw [show W2 m ρ c (Proc.devRef .tc main_arg2) = (m ((c : Thread nD τ).loc main_arg2)) from (Host.p1_keep_arg2 (W1 m ρ c)).trans (Host.p0_keep_arg2 (W0 m ρ c))]

/-- A launched stage writes only its own result array. -/
theorem carried4 (h : Carried m c (W3 m ρ c)) : Carried m c (W4 m ρ c) where
  src := (W4_of_ne m ρ c main_v3 (by decide)).trans h.src
  dst := (W4_of_ne m ρ c main_v6 (by decide)).trans h.dst
  nrm := (W4_of_ne m ρ c main_v30 (by decide)).trans h.nrm
  w := (W4_of_ne m ρ c main_arg2 (by decide)).trans h.w
  b := (W4_of_ne m ρ c main_arg3 (by decide)).trans h.b
/-- A launched stage writes only its own result array. -/
theorem carried6 (h : Carried m c (W5 m ρ c)) : Carried m c (W6 m ρ c) where
  src := (W6_of_ne m ρ c main_v3 (by decide)).trans h.src
  dst := (W6_of_ne m ρ c main_v6 (by decide)).trans h.dst
  nrm := (W6_of_ne m ρ c main_v30 (by decide)).trans h.nrm
  w := (W6_of_ne m ρ c main_arg2 (by decide)).trans h.w
  b := (W6_of_ne m ρ c main_arg3 (by decide)).trans h.b
/-- A launched stage writes only its own result array. -/
theorem carried8 (h : Carried m c (W7 m ρ c)) : Carried m c (W8 m ρ c) where
  src := (W8_of_ne m ρ c main_v3 (by decide)).trans h.src
  dst := (W8_of_ne m ρ c main_v6 (by decide)).trans h.dst
  nrm := (W8_of_ne m ρ c main_v30 (by decide)).trans h.nrm
  w := (W8_of_ne m ρ c main_arg2 (by decide)).trans h.w
  b := (W8_of_ne m ρ c main_arg3 (by decide)).trans h.b
/-- A launched stage writes only its own result array. -/
theorem carried10 (h : Carried m c (W9 m ρ c)) : Carried m c (W10 m ρ c) where
  src := (W10_of_ne m ρ c main_v3 (by decide)).trans h.src
  dst := (W10_of_ne m ρ c main_v6 (by decide)).trans h.dst
  nrm := (W10_of_ne m ρ c main_v30 (by decide)).trans h.nrm
  w := (W10_of_ne m ρ c main_arg2 (by decide)).trans h.w
  b := (W10_of_ne m ρ c main_arg3 (by decide)).trans h.b
/-- A launched stage writes only its own result array. -/
theorem carried12 (h : Carried m c (W11 m ρ c)) : Carried m c (W12 m ρ c) where
  src := (W12_of_ne m ρ c main_v3 (by decide)).trans h.src
  dst := (W12_of_ne m ρ c main_v6 (by decide)).trans h.dst
  nrm := (W12_of_ne m ρ c main_v30 (by decide)).trans h.nrm
  w := (W12_of_ne m ρ c main_arg2 (by decide)).trans h.w
  b := (W12_of_ne m ρ c main_arg3 (by decide)).trans h.b

theorem c4 : Carried m c (W4 m ρ c) := carried4 m ρ c (carried3 m ρ c)
theorem c5 : Carried m c (W5 m ρ c) := (c4 m ρ c).stretch1
theorem c6 : Carried m c (W6 m ρ c) := carried6 m ρ c (c5 m ρ c)
theorem c7 : Carried m c (W7 m ρ c) := (c6 m ρ c).stretch2
theorem c8 : Carried m c (W8 m ρ c) := carried8 m ρ c (c7 m ρ c)
theorem c9 : Carried m c (W9 m ρ c) := (c8 m ρ c).stretch3
theorem c10 : Carried m c (W10 m ρ c) := carried10 m ρ c (c9 m ρ c)
theorem c11 : Carried m c (W11 m ρ c) := (c10 m ρ c).stretch4
theorem c12 : Carried m c (W12 m ρ c) := carried12 m ρ c (c11 m ρ c)

/-! ## The first layer -/

/-- The first product. -/
theorem prod1 : W4 m ρ c (Proc.devRef .tc main_v33) = matProd (x0 m c) (w0 m c) := by
  refine (W4_arr m ρ c 2).trans ((Region0.final (V3 m ρ) c).trans ?_)
  show matProd (W3 m ρ c (Proc.devRef .tc main_arg0)) (W3 m ρ c (Proc.devRef .tc main_v32)) = _
  rw [feat3 m ρ c, weight3 m ρ c]

/-- Its aggregation. -/
theorem agg1 : W5 m ρ c (Proc.devRef .tc main_v45) = agg (src m c) (dst m c) (nrm m c) (matProd (x0 m c) (w0 m c)) := by
  refine (Host.s1_agg (W4 m ρ c)).trans ?_
  rw [(c4 m ρ c).src, (c4 m ρ c).dst, (c4 m ρ c).nrm, prod1 m ρ c]

/-- The first bias row. -/
theorem row1 : W5 m ρ c (Proc.devRef .tc main_v48) = asRow (b0 m c) := by
  refine (Host.s1_row (W4 m ρ c)).trans ?_
  rw [(c4 m ρ c).b]

/-- The first layer's output. -/
theorem out1 : W6 m ρ c (Proc.devRef .tc main_v49) = x1 m c := by
  refine (W6_arr m ρ c 2).trans ((Region1.final (V5 m ρ) c).trans ?_)
  show biasRelu (W5 m ρ c (Proc.devRef .tc main_v45)) (W5 m ρ c (Proc.devRef .tc main_v48)) = _
  rw [agg1 m ρ c, row1 m ρ c]
  rfl

/-! ## The second layer -/

theorem prod2 : W8 m ρ c (Proc.devRef .tc main_v52) = matProd (x1 m c) (w1 m c) := by
  refine (W8_arr m ρ c 2).trans ((Region2.final (V7 m ρ) c).trans ?_)
  show matProd (W7 m ρ c (Proc.devRef .tc main_v49)) (W7 m ρ c (Proc.devRef .tc main_v51)) = _
  rw [show W7 m ρ c (Proc.devRef .tc main_v49) = x1 m c from (Host.s2_keep_v49 (W6 m ρ c)).trans (out1 m ρ c),
    show W7 m ρ c (Proc.devRef .tc main_v51) = w1 m c from (Host.s2_w (W6 m ρ c)).trans (by rw [(c6 m ρ c).w])]

theorem agg2 : W9 m ρ c (Proc.devRef .tc main_v64) = agg (src m c) (dst m c) (nrm m c) (matProd (x1 m c) (w1 m c)) := by
  refine (Host.s3_agg (W8 m ρ c)).trans ?_
  rw [(c8 m ρ c).src, (c8 m ρ c).dst, (c8 m ρ c).nrm, prod2 m ρ c]

theorem row2 : W9 m ρ c (Proc.devRef .tc main_v67) = asRow (b1 m c) := by
  refine (Host.s3_row (W8 m ρ c)).trans ?_
  rw [(c8 m ρ c).b]

theorem out2 : W10 m ρ c (Proc.devRef .tc main_v68) = x2 m c := by
  refine (W10_arr m ρ c 2).trans ((Region3.final (V9 m ρ) c).trans ?_)
  show biasRelu (W9 m ρ c (Proc.devRef .tc main_v64)) (W9 m ρ c (Proc.devRef .tc main_v67)) = _
  rw [agg2 m ρ c, row2 m ρ c]
  rfl

/-! ## The third layer -/

theorem prod3 : W12 m ρ c (Proc.devRef .tc main_v71) = matProd (x2 m c) (w2 m c) := by
  refine (W12_arr m ρ c 2).trans ((Region4.final (V11 m ρ) c).trans ?_)
  show matProd (W11 m ρ c (Proc.devRef .tc main_v68)) (W11 m ρ c (Proc.devRef .tc main_v70)) = _
  rw [show W11 m ρ c (Proc.devRef .tc main_v68) = x2 m c from (Host.s4_keep_v68 (W10 m ρ c)).trans (out2 m ρ c),
    show W11 m ρ c (Proc.devRef .tc main_v70) = w2 m c from (Host.s4_w (W10 m ρ c)).trans (by rw [(c10 m ρ c).w])]

theorem agg3 : W13 m ρ c (Proc.devRef .tc main_v83) = agg (src m c) (dst m c) (nrm m c) (matProd (x2 m c) (w2 m c)) := by
  refine (Host.s5_agg (W12 m ρ c)).trans ?_
  rw [(c12 m ρ c).src, (c12 m ρ c).dst, (c12 m ρ c).nrm, prod3 m ρ c]

theorem row3 : W13 m ρ c (Proc.devRef .tc main_v86) = asRow (b2 m c) := by
  refine (Host.s5_row (W12 m ρ c)).trans ?_
  rw [(c12 m ρ c).b]

/-- The program's result buffer, after the last stage, holds the network of the four arguments. -/
theorem result_eq : W14 m ρ c (Proc.devRef .tc main_v87)
    = net (src m c) (dst m c) (nrm m c) (x0 m c) (w0 m c) (w1 m c) (w2 m c) (b0 m c) (b1 m c) (b2 m c) := by
  refine (W14_arr m ρ c 2).trans ((Region5.final (V13 m ρ) c).trans ?_)
  show biasRelu (W13 m ρ c (Proc.devRef .tc main_v83)) (W13 m ρ c (Proc.devRef .tc main_v86)) = _
  rw [agg3 m ρ c, row3 m ρ c]
  rfl

end Cert.KernelIdeal.Value

end
-- ==== Proof.lean ====
/- The proof of `Cert.Claim` (proofs.«145236_j10685878632941_1_alg».proof.Defs).

   The kernel and the reference both compute a three-layer graph-convolution network on the extended reals. A layer
   multiplies the node features by a 128×128 matrix, sums the products along the edges into their target nodes (each
   edge scaled by the product of its end nodes' inverse-square-root degrees; every node has a self-loop), adds a bias
   row and joins with zero. The kernel does the product and the bias-and-clamp in launched stages, ten blocks of 10000
   rows each, and the sum along the edges with the same host operations the reference uses; the reference does the
   product and the bias-and-clamp with host operations too. A block of rows of a product is the same rows of the
   product of the whole arrays, and the bias-and-clamp is entry by entry, so each stage leaves the whole-array function
   (Proof/Region0 … Region5 over Proof/Bodies), the host stretches between them leave the aggregation and the
   parameters' slices (Proof/HostStretches), and stage by stage the kernel's result is `Cert.Gcn.net` of the four
   arguments (Proof/KernelValue over Proof/KernelRun). The reference's operations, read one at a time, are the same
   function (Proof/RefValue). The sum along the edges is never opened: it is the same operation on both sides. No law
   used needs the inputs finite. -/
import proofs.«145236_j10685878632941_1_alg».proof.Defs
import proofs.«145236_j10685878632941_1_alg».proof.Proof.Gen.Kernel
import proofs.«145236_j10685878632941_1_alg».proof.Proof.Gen.Kernel.Frame
import proofs.«145236_j10685878632941_1_alg».proof.Proof.Gen.KernelIdeal
import proofs.«145236_j10685878632941_1_alg».proof.Proof.Gen.KernelIdeal.Frame
import proofs.«145236_j10685878632941_1_alg».proof.Proof.Gen.ReferenceIdeal
import proofs.«145236_j10685878632941_1_alg».proof.Proof.Gen.Pre_finite_inputs
import proofs.«145236_j10685878632941_1_alg».proof.Proof.KernelRun
import proofs.«145236_j10685878632941_1_alg».proof.Proof.KernelValue
import proofs.«145236_j10685878632941_1_alg».proof.Proof.RefRead
import proofs.«145236_j10685878632941_1_alg».proof.Proof.RefValue
import Idealize.ShloMosaic.Adequacy
import Idealize.ShloMosaic.Init

noncomputable section

namespace Cert.Proof

open Idealize.ShloMosaic Idealize.SL.Sem

/-- The kernel as printed runs, and leaves its arguments as launched. -/
theorem frame_k : Cert.frame_Kernel := fun m ρ _ => Cert.Kernel.Gen.frame m ρ

/-- So does the kernel at the exact values. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten between the kernel and its exact reading. -/
theorem preserves : Cert.preserves_Kernel_KernelIdeal := trivial

/-- From memories agreeing on the four arguments both programs end with the network of the arguments in their
    result buffers. -/
theorem algebraic : Cert.algebraic_KernelIdeal_ReferenceIdeal := by
  intro m ρ m' ρ' _ hagree
  refine ⟨fun c => Cert.Gcn.net (Cert.KernelIdeal.Value.src m c) (Cert.KernelIdeal.Value.dst m c)
      (Cert.KernelIdeal.Value.nrm m c) (Cert.KernelIdeal.Value.x0 m c) (Cert.KernelIdeal.Value.w0 m c)
      (Cert.KernelIdeal.Value.w1 m c) (Cert.KernelIdeal.Value.w2 m c) (Cert.KernelIdeal.Value.b0 m c)
      (Cert.KernelIdeal.Value.b1 m c) (Cert.KernelIdeal.Value.b2 m c), ?_, ?_⟩
  · exact (θ_run Cert.KernelIdeal.defs _ _).mono
      (fun r h c => ⟨(h c).1.trans (Cert.KernelIdeal.Value.result_eq m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v93_eq, Cert.Gcn.ref_net, (hagree c).1, (hagree c).2.1, (hagree c).2.2.1,
      (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
